-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8192 : Shape := ⟨2, ![2048, 8192]⟩
abbrev S2048x1000 : Shape := ⟨2, ![2048, 1000]⟩
abbrev S2048 : Shape := ⟨1, ![2048]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S2048x1000 : S_.BroadcastsInDim S2048x1000 (![] : Fin 0 → Fin S2048x1000.rank)
  reducesTo_S2048x1000_S_d0_1 : S2048x1000.ReducesTo [0, 1] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S2048x8192 .f32) (main_arg1 : FVec F S2048x1000 .f32) (main_arg2 : IVec S2048 32) (main_arg3 : FVec F S2048x8192 .f32) (main_arg4 : FVec F S2048x8192 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S2048x1000 .f32 := Host.absf main_arg1
  let main_cst_0 : FVec F S_ .f32 := constant S_ .f32 0x7F800000#32
  let main_v5 : FVec F S2048x1000 .f32 := broadcastInDim S2048x1000 ![] bcast_S_S2048x1000 main_cst_0
  let main_v6 : IVec S2048x1000 1 := cmpf .olt main_v4 main_v5
  let main_c_1 : IVec S_ 1 := constantI S_ 1 1#1
  let main_v7 : IVec S_ 1 := (fun x v => Host.reduce IntOp.andi x v reducesTo_S2048x1000_S_d0_1 h_S_) main_v6 main_c_1
  let main_v8 : IVec S_ 1 := andi main_v3 main_v7
  let main_v9 : FVec F S2048x8192 .f32 := Host.absf main_arg3
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  let main_v14 : FVec F S2048x8192 .f32 := Host.absf main_arg4
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S2048x8192 : Shape := ⟨2, ![2048, 8192]⟩
abbrev S2048x1000 : Shape := ⟨2, ![2048, 1000]⟩
abbrev S2048 : Shape := ⟨1, ![2048]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩
abbrev S128x8192 : Shape := ⟨2, ![128, 8192]⟩
abbrev S128x1 : Shape := ⟨2, ![128, 1]⟩

abbrev nBuf : Space → Nat
  | .hbm => 73
  | .vmem => 10
  | .smem => 0
  | _ => 0

abbrev bufTy : (tb : Table) → Fin (tcTables nBuf tb) → BufTy
  | .hbm, ⟨0, _⟩ => ⟨S2048x8192, .f32⟩
  | .hbm, ⟨1, _⟩ => ⟨S2048x1000, .f32⟩
  | .hbm, ⟨2, _⟩ => ⟨S2048, .i32⟩
  | .hbm, ⟨3, _⟩ => ⟨S2048x8192, .f32⟩
  | .hbm, ⟨4, _⟩ => ⟨S2048x8192, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048x1, .f32⟩
  | .hbm, ⟨11, _⟩ => ⟨S2048x1000, .f32⟩
  | .hbm, ⟨12, _⟩ => ⟨S2048x1000, .f32⟩
  | .hbm, ⟨13, _⟩ => ⟨S2048x1000, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x1, .f32⟩
  | .hbm, ⟨18, _⟩ => ⟨S2048x1000, .f32⟩
  | .hbm, ⟨19, _⟩ => ⟨S2048x1000, .f32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S1, .i32⟩
  | .hbm, ⟨30, _⟩ => ⟨S_, .i32⟩
  | .hbm, ⟨31, _⟩ => ⟨S2048x1x1, .i32⟩
  | .hbm, ⟨32, _⟩ => ⟨S2048x1x1, .i1⟩
  | .hbm, ⟨33, _⟩ => ⟨S1x1x1, .i32⟩
  | .hbm, ⟨34, _⟩ => ⟨S2048x1x1, .i32⟩
  | .hbm, ⟨35, _⟩ => ⟨S2048x1x1, .i1⟩
  | .hbm, ⟨36, _⟩ => ⟨S2048x1x1, .i1⟩
  | .hbm, ⟨37, _⟩ => ⟨S_, .i1⟩
  | .hbm, ⟨38, _⟩ => ⟨S2048x1, .i1⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048, .f32⟩
  | .hbm, ⟨44, _⟩ => ⟨S2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S_, .f32⟩
  | .hbm, ⟨63, _⟩ => ⟨S2048, .f32⟩
  | .hbm, ⟨64, _⟩ => ⟨S2048, .f32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S_, .f32⟩
  | .hbm, ⟨69, _⟩ => ⟨S2048, .f32⟩
  | .hbm, ⟨70, _⟩ => ⟨S2048, .f32⟩
  | .hbm, ⟨71, _⟩ => ⟨S2048x1, .f32⟩
  | .hbm, ⟨72, _⟩ => ⟨S2048x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | .local _ .vmem, ⟨6, _⟩ => ⟨S128x1, .f32⟩
  | .local _ .vmem, ⟨7, _⟩ => ⟨S128x1, .f32⟩
  | .local _ .vmem, ⟨8, _⟩ => ⟨S128x8192, .f32⟩
  | .local _ .vmem, ⟨9, _⟩ => ⟨S128x8192, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_cst_0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_cst_1 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_v0 : Ref sig .tc := ⟨.hbm, 19, rfl⟩
abbrev main_call0_v1 : Ref sig .tc := ⟨.hbm, 20, rfl⟩
abbrev main_call0_call1_c : Ref sig .tc := ⟨.hbm, 21, rfl⟩
abbrev main_call0_call1_v0 : Ref sig .tc := ⟨.hbm, 22, rfl⟩
abbrev main_call0_call1_v1 : Ref sig .tc := ⟨.hbm, 23, rfl⟩
abbrev main_call0_call1_c_0 : Ref sig .tc := ⟨.hbm, 24, rfl⟩
abbrev main_call0_call1_v2 : Ref sig .tc := ⟨.hbm, 25, rfl⟩
abbrev main_call0_call1_v3 : Ref sig .tc := ⟨.hbm, 26, rfl⟩
abbrev main_call0_call1_v4 : Ref sig .tc := ⟨.hbm, 27, rfl⟩
abbrev main_call0_call1_v5 : Ref sig .tc := ⟨.hbm, 28, rfl⟩
abbrev main_call0_call1_c_1 : Ref sig .tc := ⟨.hbm, 29, rfl⟩
abbrev main_call0_call1_c_2 : Ref sig .tc := ⟨.hbm, 30, rfl⟩
abbrev main_call0_call1_v6 : Ref sig .tc := ⟨.hbm, 31, rfl⟩
abbrev main_call0_call1_v7 : Ref sig .tc := ⟨.hbm, 32, rfl⟩
abbrev main_call0_call1_v8 : Ref sig .tc := ⟨.hbm, 33, rfl⟩
abbrev main_call0_call1_v9 : Ref sig .tc := ⟨.hbm, 34, rfl⟩
abbrev main_call0_call1_v10 : Ref sig .tc := ⟨.hbm, 35, rfl⟩
abbrev main_call0_call1_v11 : Ref sig .tc := ⟨.hbm, 36, rfl⟩
abbrev main_call0_call1_c_3 : Ref sig .tc := ⟨.hbm, 37, rfl⟩
abbrev main_call0_call1_v12 : Ref sig .tc := ⟨.hbm, 38, rfl⟩
abbrev main_call0_call1_v13 : Ref sig .tc := ⟨.hbm, 39, rfl⟩
abbrev main_call0_call1_cst : Ref sig .tc := ⟨.hbm, 40, rfl⟩
abbrev main_call0_call1_v14 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_cst : Ref sig .tc := ⟨.hbm, 45, rfl⟩
abbrev main_call0_v5 : Ref sig .tc := ⟨.hbm, 46, rfl⟩
abbrev main_call0_cst_0 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_cst_1 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_cst_2 : Ref sig .tc := ⟨.hbm, 56, rfl⟩
abbrev main_call0_v13 : Ref sig .tc := ⟨.hbm, 57, rfl⟩
abbrev main_call0_v14 : Ref sig .tc := ⟨.hbm, 58, rfl⟩
abbrev main_call0_cst_3 : Ref sig .tc := ⟨.hbm, 59, rfl⟩
abbrev main_call0_v15 : Ref sig .tc := ⟨.hbm, 60, rfl⟩
abbrev main_call0_v16 : Ref sig .tc := ⟨.hbm, 61, rfl⟩
abbrev main_call0_cst_4 : Ref sig .tc := ⟨.hbm, 62, rfl⟩
abbrev main_call0_v17 : Ref sig .tc := ⟨.hbm, 63, rfl⟩
abbrev main_call0_v18 : Ref sig .tc := ⟨.hbm, 64, rfl⟩
abbrev main_call0_cst_5 : Ref sig .tc := ⟨.hbm, 65, rfl⟩
abbrev main_call0_v19 : Ref sig .tc := ⟨.hbm, 66, rfl⟩
abbrev main_call0_v20 : Ref sig .tc := ⟨.hbm, 67, rfl⟩
abbrev main_call0_cst_6 : Ref sig .tc := ⟨.hbm, 68, rfl⟩
abbrev main_call0_v21 : Ref sig .tc := ⟨.hbm, 69, rfl⟩
abbrev main_call0_v22 : Ref sig .tc := ⟨.hbm, 70, rfl⟩
abbrev main_call0_v23 : Ref sig .tc := ⟨.hbm, 71, rfl⟩
abbrev main_v0 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S2048x1000_S2048_d1 : S2048x1000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1000_0_1 : S2048x1.BroadcastsInDim S2048x1000 (![0, 1] : Fin 2 → Fin S2048x1000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  shapeCasts_S2048_S2048x1 : S2048.ShapeCasts S2048x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8192 : S128x1.Broadcasts S128x8192
  inb_S128x8192_S128x8192_0_0 : ∀ a, (![0, 0] : Fin 2 → Nat) a + S128x8192.size a ≤ S128x8192.size a
  h_S128x8192 : 0 < S128x8192.numel
  gather_S2048x1000_S2048x1x1_S2048x1_n_1_0_0_1_2_11_wf : GatherDims.WF S2048x1000 S2048x1x1 S2048x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S2048x8192.size a
  hwx0_0 : ∀ i : grid0.Coords, EltTy.bits .f32 = 32 ∨ (Rect.block (s := S2048x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S2048x8192.size a
  hwx0_1 : ∀ i : grid0.Coords, EltTy.bits .f32 = 32 ∨ (Rect.block (s := S2048x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S2048x8192.size a
  hwx0_2 : ∀ i : grid0.Coords, EltTy.bits .f32 = 32 ∨ (Rect.block (s := S2048x8192) S128x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S2048x1.size a
  hwx0_3 : ∀ i : grid0.Coords, EltTy.bits .f32 = 32 ∨ (Rect.block (s := S2048x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x8192.size a ≤ S2048x8192.size a
  hwx0_4 : ∀ i : grid0.Coords, EltTy.bits .f32 = 32 ∨ (Rect.block (s := S2048x8192) S128x8192.size (cc0_transform_4 i) (hinb0_4 i)).WholeWords (EltTy.packing .f32)

variable [Facts₀]

def gather_S2048x1000_S2048x1x1_S2048x1_n_1_0_0_1_2_11 : GatherDims S2048x1000 S2048x1x1 S2048x1 where
  offsetDims := []
  collapsedSliceDims := [1]
  operandBatchingDims := [0]
  startIndicesBatchingDims := [0]
  startIndexMap := [1]
  indexVectorDim := 2
  sliceSizes := ![1, 1]
  wf := gather_S2048x1000_S2048x1x1_S2048x1_n_1_0_0_1_2_11_wf

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v23) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x8192 : Shape := ⟨2, ![2048, 8192]⟩
abbrev S2048x1000 : Shape := ⟨2, ![2048, 1000]⟩
abbrev S2048 : Shape := ⟨1, ![2048]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 83
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x1000, .f32⟩
  | .hbm, ⟨2, _⟩ => ⟨S2048, .i32⟩
  | .hbm, ⟨3, _⟩ => ⟨S2048x8192, .f32⟩
  | .hbm, ⟨4, _⟩ => ⟨S2048x8192, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048x1, .f32⟩
  | .hbm, ⟨11, _⟩ => ⟨S2048x1000, .f32⟩
  | .hbm, ⟨12, _⟩ => ⟨S2048x1000, .f32⟩
  | .hbm, ⟨13, _⟩ => ⟨S2048x1000, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x1, .f32⟩
  | .hbm, ⟨18, _⟩ => ⟨S2048x1000, .f32⟩
  | .hbm, ⟨19, _⟩ => ⟨S2048x1000, .f32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S1, .i32⟩
  | .hbm, ⟨30, _⟩ => ⟨S_, .i32⟩
  | .hbm, ⟨31, _⟩ => ⟨S2048x1x1, .i32⟩
  | .hbm, ⟨32, _⟩ => ⟨S2048x1x1, .i1⟩
  | .hbm, ⟨33, _⟩ => ⟨S1x1x1, .i32⟩
  | .hbm, ⟨34, _⟩ => ⟨S2048x1x1, .i32⟩
  | .hbm, ⟨35, _⟩ => ⟨S2048x1x1, .i1⟩
  | .hbm, ⟨36, _⟩ => ⟨S2048x1x1, .i1⟩
  | .hbm, ⟨37, _⟩ => ⟨S_, .i1⟩
  | .hbm, ⟨38, _⟩ => ⟨S2048x1, .i1⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048, .f32⟩
  | .hbm, ⟨44, _⟩ => ⟨S2048, .f32⟩
  | .hbm, ⟨45, _⟩ => ⟨S_, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S_, .f32⟩
  | .hbm, ⟨65, _⟩ => ⟨S2048, .f32⟩
  | .hbm, ⟨66, _⟩ => ⟨S2048, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S_, .f32⟩
  | .hbm, ⟨74, _⟩ => ⟨S2048x8192, .f32⟩
  | .hbm, ⟨75, _⟩ => ⟨S2048x8192, .i1⟩
  | .hbm, ⟨76, _⟩ => ⟨S2048x1, .f32⟩
  | .hbm, ⟨77, _⟩ => ⟨S2048x8192, .f32⟩
  | .hbm, ⟨78, _⟩ => ⟨S2048x8192, .f32⟩
  | .hbm, ⟨79, _⟩ => ⟨S_, .f32⟩
  | .hbm, ⟨80, _⟩ => ⟨S2048x8192, .f32⟩
  | .hbm, ⟨81, _⟩ => ⟨S2048x8192, .f32⟩
  | .hbm, ⟨82, _⟩ => ⟨S2048x8192, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_cst : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_cst_0 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_v10 : Ref sig .tc := ⟨.hbm, 53, rfl⟩
abbrev main_cst_2 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_cst_3 : Ref sig .tc := ⟨.hbm, 58, rfl⟩
abbrev main_v14 : Ref sig .tc := ⟨.hbm, 59, rfl⟩
abbrev main_v15 : Ref sig .tc := ⟨.hbm, 60, rfl⟩
abbrev main_cst_4 : Ref sig .tc := ⟨.hbm, 61, rfl⟩
abbrev main_v16 : Ref sig .tc := ⟨.hbm, 62, rfl⟩
abbrev main_v17 : Ref sig .tc := ⟨.hbm, 63, rfl⟩
abbrev main_cst_5 : Ref sig .tc := ⟨.hbm, 64, rfl⟩
abbrev main_v18 : Ref sig .tc := ⟨.hbm, 65, rfl⟩
abbrev main_v19 : Ref sig .tc := ⟨.hbm, 66, rfl⟩
abbrev main_cst_6 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_cst_9 : Ref sig .tc := ⟨.hbm, 79, rfl⟩
abbrev main_call2_v0 : Ref sig .tc := ⟨.hbm, 80, rfl⟩
abbrev main_v29 : Ref sig .tc := ⟨.hbm, 81, rfl⟩
abbrev main_v30 : Ref sig .tc := ⟨.hbm, 82, rfl⟩

abbrev nD : Nat := 1
abbrev τ : Topo := Topo.v7x

variable {F : FTy → Type} [FloatOps F]

class Facts₀ : Prop where
  reducesTo_S2048x1000_S2048_d1 : S2048x1000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1000_0_1 : S2048x1.BroadcastsInDim S2048x1000 (![0, 1] : Fin 2 → Fin S2048x1000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  bcast_S_S2048x8192 : S_.BroadcastsInDim S2048x8192 (![] : Fin 0 → Fin S2048x8192.rank)
  bcast_S2048x1_S2048x8192_0_1 : S2048x1.BroadcastsInDim S2048x8192 (![0, 1] : Fin 2 → Fin S2048x8192.rank)
  gather_S2048x1000_S2048x1x1_S2048x1_n_1_0_0_1_2_11_wf : GatherDims.WF S2048x1000 S2048x1x1 S2048x1 [] [1] [0] [1] [0] 2 ![1, 1]

variable [Facts₀]

def gather_S2048x1000_S2048x1x1_S2048x1_n_1_0_0_1_2_11 : GatherDims S2048x1000 S2048x1x1 S2048x1 where
  offsetDims := []
  collapsedSliceDims := [1]
  operandBatchingDims := [0]
  startIndicesBatchingDims := [0]
  startIndexMap := [1]
  indexVectorDim := 2
  sliceSizes := ![1, 1]
  wf := gather_S2048x1000_S2048x1x1_S2048x1_n_1_0_0_1_2_11_wf

class Facts : Prop extends Facts₀ where

variable [Facts]
-- ==== Proof.LibTypedRef.lean ====
/-
  A typed reference to a buffer (the handle an outlined function's operations use) moves contents between the value's
  type and the buffer's type along the equation of the two. Moving contents to the buffer's type and back gives them
  back unchanged, whatever the reference.
-/
import Idealize.ShloMosaic.Lib.StableHlo

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨ref, ty_eq, h1, h2⟩ := x
  subst ty_eq
  rfl

end Cert.LibTypedRef
-- ==== Proof.KernelScale.lean ====
/-
  The per-sample scale as the kernel's region finds it.

  Before the region the kernel's program runs, on the host, the same chain of operations as the reference — the log of
  the softmax of the sample scores, the entry at each sample's label, its negation (the loss), the loss's minimum and
  maximum, the normalization, `min(0.1 · (1 + (1 − normalized loss)), 1)` — and then reshapes the resulting vector of
  2048 scales to the column [2048, 1] that the region's fourth window stages. So the column the region finds is that
  reshape of the reference's scale stage (`val_main_v23`) of the kernel's own score and label arrays: the two chains
  are one term, operation by operation and word by word, the reference merely computing the minimum twice.
  Read at a row, the column is the scale of that row.
-/
import proofs.«173170_j20770461843630_2_alg».proof.Proof.Gen.KernelIdeal.Frame
import proofs.«173170_j20770461843630_2_alg».proof.Proof.RefReadP
import proofs.«173170_j20770461843630_2_alg».proof.Proof.LibTypedRef
import Idealize.ShloMosaic.Lib.Pipeline.Value
import Idealize.ShloMosaic.Lib.StableHlo.Run

noncomputable section

namespace Cert.KernelIdeal.ScaleCol

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The scale of every sample, from the score and label arrays the kernel's program was launched with: the
    reference's scale stage of them. -/
def scale (c : Dev nD) : S2048.Idx → Elt F .f32 :=
  Cert.ReferenceIdeal.ReadP.val_main_v23 (F := F) (m ((c : Thread nD τ).loc main_arg1)) (m ((c : Thread nD τ).loc main_arg2))

set_option maxRecDepth 65536 in
set_option maxHeartbeats 40000000 in
/-- The column the region finds in its fourth window's array is the vector of scales reshaped to [2048, 1]. -/
theorem col_eq (c : Dev nD) :
    (V m c main_call0_v23 : S2048x1.Idx → Elt F .f32) = shapeCast S2048x1 (scale m c) shapeCasts_S2048_S2048x1 := by
  dsimp only [Gen.V, Gen.hostOps0]
  after_results_simp
  simp only [Cert.LibTypedRef.ofBuf_toBuf]
  unfold scale
  rfl

/-- A vector of 2048 entries reshaped to a column, read at a row: the vector's entry of that row. -/
theorem col_apply {α : Type} (x : S2048.Idx → α) (j : S2048x1.Idx) (k : S2048.Idx) (hk : (k 0).val = (j 0).val) :
    shapeCast S2048x1 x shapeCasts_S2048_S2048x1 j = x k := by
  refine shapeCast_apply x shapeCasts_S2048_S2048x1 j k ?_
  rw [Shape.rowMajor_val_one, Shape.rowMajor_val_two]
  have h1 : (j 1).val < 1 := (j 1).isLt
  show (k 0).val = (j 0).val * 1 + (j 1).val
  omega

end Cert.KernelIdeal.ScaleCol

end
-- ==== Proof.Noised.lean ====
/-
  The function both programs compute, entry by entry.

  The data are three 2048 × 8192 matrices — the samples x, uniform draws u, unit noise n — and one scale per sample
  (per row), a vector s of 2048 entries. The result keeps x where the draw is at least 0.3 and adds the row's scaled
  noise where it is below:

      out(r, k) = x(r, k) + (if u(r, k) < 0.3 then n(r, k) · s(r) else 0).

  The threshold is the binary word 0x3E99999A and the zero the word 0; both programs carry the same two words, so they
  are never evaluated. The function is stated for any float instance: nothing below uses a law of arithmetic.
-/
import Idealize.ShloMosaic.Lib.ValueIdx

noncomputable section

namespace Cert.MaskNoise

open Idealize.ShloMosaic Idealize.ShloMosaic.TcCoe

variable {F : FTy → Type} [FloatOps F]

/-- The shape of the data matrices: 2048 samples of 8192 features. -/
abbrev Mat : Shape := ⟨2, ![2048, 8192]⟩
/-- The shape of a per-sample vector. -/
abbrev Smp : Shape := ⟨1, ![2048]⟩

/-- The sample (the row) an entry of a data matrix belongs to. -/
abbrev rowOf (i : Mat.Idx) : Smp.Idx := fun a => match a with
  | ⟨0, _⟩ => ⟨(i 0).val, (i 0).isLt⟩

/-- x plus, where the draw u is below 0.3, the noise n times the row's scale s. -/
def noised (x u n : Mat.Idx → Elt F .f32) (s : Smp.Idx → Elt F .f32) : Mat.Idx → Elt F .f32 := fun i =>
  FloatOps.addf (x i)
    (Scalar.select (FloatOps.cmpf .olt (u i) (FloatOps.ofBits .f32 0x3E99999A#32))
      (FloatOps.mulf (n i) (s (rowOf i))) (FloatOps.ofBits .f32 0x00000000#32))

end Cert.MaskNoise

end
-- ==== Proof.KernelValue.lean ====
/-
  The array the kernel's region leaves, as one function of the arguments.

  The region has 16 grid points. Point t stages rows 128·t … 128·t + 127 of the samples x, the draws u and the noise n
  (all 8192 columns), and the same rows of the scale column [2048, 1]; its body leaves in the output block, at
  (p, k), the value  x + (if u < 0.3 then n · scale else 0)  of the staged entries at (p, k) — the scale's at (p, 0),
  which is the scale of row 128·t + p. The output block is written back to rows 128·t … 128·t + 127 of the result. So
  what point t writes back is block t of `noised x u n scale`, and since the 16 blocks cover all 2048 rows the result
  array is that function everywhere.
-/
import proofs.«173170_j20770461843630_2_alg».proof.Proof.Gen.KernelIdeal.Value
import proofs.«173170_j20770461843630_2_alg».proof.Proof.KernelScale
import proofs.«173170_j20770461843630_2_alg».proof.Proof.Noised

noncomputable section

namespace Cert.KernelIdeal.Whole

open Cert.KernelIdeal Cert.KernelIdeal.Gen Cert.KernelIdeal.ScaleCol Cert.MaskNoise
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- What the body leaves in the output block, at a block index, from the four staged blocks: the sum, compare, select
    and product of their entries at that index (the scale's in column 0 of its row). -/
theorem body_at (x0 x1 x2 : Vec F S128x8192 .f32) (x3 : Vec F S128x1 .f32) (y : S128x8192.Idx) :
    out0_4 x0 x1 x2 x3 y = Value.E4 x0 x1 x2 x3 y := by
  unfold out0_4
  simp only [View.ld_unit_zero (S := S128x8192) origin, View.ld_unit_zero (S := S128x1) origin]
  exact Value.canon4_eq x0 x1 x2 x3 y

/-- Every window's block at point t starts at the output block's row block and at column block 0; there are 16 row
    blocks. Decided over the grid. -/
theorem block_starts : ∀ t : Fin cfg0.N,
      win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (0 : Fin 2) ∧ win0_3.index t (1 : Fin 2) = 0
    ∧ win0_4.index t (0 : Fin 2) ≤ 15 ∧ win0_4.index t (1 : Fin 2) = 0 :=
  (by decide +kernel : ∀ t : Fin grid0.N, _)

/-- Every one of the 16 row blocks is some point's. -/
theorem block_onto : ∀ q : Fin 16, ∃ t : Fin cfg0.N, win0_4.index t = ![q.val, 0] :=
  (by decide +kernel : ∀ q : Fin 16, ∃ t : Fin grid0.N, win0_4.index t = ![q.val, 0])

/-- The entry's formula respects equal inputs (the threshold and the zero are the same words on both sides). -/
theorem entry_congr {x x' u u' n n' s s' : F .f32} (hx : x = x') (hu : u = u') (hn : n = n') (hs : s = s') :
    FloatOps.addf x (Scalar.select (FloatOps.cmpf .olt u (Scalar.ofBits .f32 0x3E99999A#32)) (FloatOps.mulf n s)
        (Scalar.ofBits .f32 0x00000000#32))
      = FloatOps.addf x' (Scalar.select (FloatOps.cmpf .olt u' (FloatOps.ofBits .f32 0x3E99999A#32)) (FloatOps.mulf n' s')
        (FloatOps.ofBits .f32 0x00000000#32)) := by
  subst hx hu hn hs
  rfl

/-- Window 0's staged block under a block index of the output: the array's entry at the result's index. -/
theorem staged0 (c : Dev nD) (t : Fin cfg0.N) (j : S128x8192.Idx) :
    iblk m c 0 t (Value.ix4_0 j) = V m c main_arg0 (((cfg0.win 4).blk t).view.emb j) := by
  obtain ⟨a0, a1, b0, b1, d0, d1, e0, e1, o0, o1⟩ := block_starts t
  have hj0 : (j 0).val < 128 := (j 0).isLt
  have hj1 : (j 1).val < 8192 := (j 1).isLt
  show V m c main_arg0 (((cfg0.win 0).blk t).view.emb (Value.ix4_0 j)) = V m c main_arg0 (((cfg0.win 4).blk t).view.emb j)
  refine congrArg (V m c main_arg0) ?_
  funext a; apply Fin.ext
  match a with
  | ⟨0, _⟩ => show win0_0.index t (0 : Fin 2) * 128 + 1 * (j 0).val = win0_4.index t (0 : Fin 2) * 128 + 1 * (j 0).val; omega
  | ⟨1, _⟩ => show win0_0.index t (1 : Fin 2) * 8192 + 1 * (j 1).val = win0_4.index t (1 : Fin 2) * 8192 + 1 * (j 1).val; omega

/-- Window 1's staged block under a block index of the output: the array's entry at the result's index. -/
theorem staged1 (c : Dev nD) (t : Fin cfg0.N) (j : S128x8192.Idx) :
    iblk m c 1 t (Value.ix4_1 j) = V m c main_arg3 (((cfg0.win 4).blk t).view.emb j) := by
  obtain ⟨a0, a1, b0, b1, d0, d1, e0, e1, o0, o1⟩ := block_starts t
  have hj0 : (j 0).val < 128 := (j 0).isLt
  have hj1 : (j 1).val < 8192 := (j 1).isLt
  show V m c main_arg3 (((cfg0.win 1).blk t).view.emb (Value.ix4_1 j)) = V m c main_arg3 (((cfg0.win 4).blk t).view.emb j)
  refine congrArg (V m c main_arg3) ?_
  funext a; apply Fin.ext
  match a with
  | ⟨0, _⟩ => show win0_1.index t (0 : Fin 2) * 128 + 1 * (j 0).val = win0_4.index t (0 : Fin 2) * 128 + 1 * (j 0).val; omega
  | ⟨1, _⟩ => show win0_1.index t (1 : Fin 2) * 8192 + 1 * (j 1).val = win0_4.index t (1 : Fin 2) * 8192 + 1 * (j 1).val; omega

/-- Window 2's staged block under a block index of the output: the array's entry at the result's index. -/
theorem staged2 (c : Dev nD) (t : Fin cfg0.N) (j : S128x8192.Idx) :
    iblk m c 2 t (Value.ix4_2 j) = V m c main_arg4 (((cfg0.win 4).blk t).view.emb j) := by
  obtain ⟨a0, a1, b0, b1, d0, d1, e0, e1, o0, o1⟩ := block_starts t
  have hj0 : (j 0).val < 128 := (j 0).isLt
  have hj1 : (j 1).val < 8192 := (j 1).isLt
  show V m c main_arg4 (((cfg0.win 2).blk t).view.emb (Value.ix4_2 j)) = V m c main_arg4 (((cfg0.win 4).blk t).view.emb j)
  refine congrArg (V m c main_arg4) ?_
  funext a; apply Fin.ext
  match a with
  | ⟨0, _⟩ => show win0_2.index t (0 : Fin 2) * 128 + 1 * (j 0).val = win0_4.index t (0 : Fin 2) * 128 + 1 * (j 0).val; omega
  | ⟨1, _⟩ => show win0_2.index t (1 : Fin 2) * 8192 + 1 * (j 1).val = win0_4.index t (1 : Fin 2) * 8192 + 1 * (j 1).val; omega

/-- The staged scale column under a block index of the output: the scale of the result index's row. -/
theorem staged3 (c : Dev nD) (t : Fin cfg0.N) (j : S128x8192.Idx) :
    iblk m c 3 t (Value.ix4_3 j) = scale m c (rowOf (((cfg0.win 4).blk t).view.emb j)) := by
  obtain ⟨a0, a1, b0, b1, d0, d1, e0, e1, o0, o1⟩ := block_starts t
  have hj0 : (j 0).val < 128 := (j 0).isLt
  refine (congrFun (col_eq m c) (((cfg0.win 3).blk t).view.emb (Value.ix4_3 j))).trans ?_
  refine col_apply (scale m c) _ _ ?_
  show win0_4.index t (0 : Fin 2) * 128 + 1 * (j 0).val = win0_3.index t (0 : Fin 2) * 128 + 1 * (j 0).val
  omega

/-- At an entry, what the body leaves from the staged blocks is `noised` of the arrays as the region finds them. -/
theorem entry_eq (c : Dev nD) (t : Fin cfg0.N) (j : S128x8192.Idx) :
    Value.E4 (iblk m c 0 t) (iblk m c 1 t) (iblk m c 2 t) (iblk m c 3 t) j
      = noised (V m c main_arg0) (V m c main_arg3) (V m c main_arg4) (scale m c) (((cfg0.win 4).blk t).view.emb j) :=
  entry_congr (staged0 m c t j) (staged1 m c t j) (staged2 m c t j) (staged3 m c t j)

/-- What point t writes back is block t of `noised` of the arrays as the region finds them. -/
theorem flushed_eq (c : Dev nD) (t : Fin cfg0.N) :
    (dats m 0 c).flushed 4 t = ((cfg0.win 4).blk t).view.read (Elt F)
      (noised (V m c main_arg0) (V m c main_arg3) (V m c main_arg4) (scale m c)) := by
  rw [Value.flushed4]
  funext j
  show out0_4 (iblk m c 0 t) (iblk m c 1 t) (iblk m c 2 t) (iblk m c 3 t) j
    = noised (V m c main_arg0) (V m c main_arg3) (V m c main_arg4) (scale m c) (((cfg0.win 4).blk t).view.emb j)
  exact (body_at (iblk m c 0 t) (iblk m c 1 t) (iblk m c 2 t) (iblk m c 3 t) j).trans (entry_eq m c t j)

/-- An index of the result array is in point t's block iff each coordinate is in the block's range on its axis. -/
theorem mem_blk (t : Fin cfg0.N) (i : S2048x8192.Idx) :
    i ∈ ((cfg0.win 4).blk t).view.set ↔ ∀ a : Fin 2, win0_4.index t a * S128x8192.size a ≤ (i a).val ∧ (i a).val < win0_4.index t a * S128x8192.size a + S128x8192.size a := by
  show i ∈ ((View.whole main_v0).slice (win0_4.rect t)).set ↔ _
  rw [View.set_slice_whole, Rect.mem_set_unit]
  exact Iff.rfl

/-- Every index of the result array is in the block of the point that owns its row's block of 128 rows. -/
theorem covered (i : S2048x8192.Idx) :
    ∃ t : Fin cfg0.N, (cfg0.win 4).flush t = true ∧ i ∈ ((cfg0.win 4).blk t).view.set := by
  have hi0 : (i 0).val < 2048 := (i 0).isLt
  have hi1 : (i 1).val < 8192 := (i 1).isLt
  obtain ⟨t, ht⟩ := block_onto ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 8192 ≤ (i 1).val ∧ (i 1).val < win0_4.index t (1 : Fin 2) * 8192 + 8192; omega

/-- The result array after the region: `noised` of the arrays as the region finds them. -/
theorem final (c : Dev nD) : (dats m 0 c).arrAt 4 cfg0.N
    = noised (V m c main_arg0) (V m c main_arg3) (V m c main_arg4) (scale m c) :=
  (dats m 0 c).arrAt_eq_of_cover 4 _ (fun t _ => flushed_eq m c t) covered

/-- The kernel program's run: every execution ends with the result array at `noised` of the arguments x, u, n it was
    launched with and of the scale of its score and label arguments, and with the arguments unchanged. -/
theorem run : θ_run defs (onTc (τ := τ) (main (F := F))) ⟨m, fun _ => 0, ρ⟩ fun r => ∀ c : Dev nD,
      r.2.mem ((c : Thread nD τ).loc main_v0)
        = noised (m ((c : Thread nD τ).loc main_arg0)) (m ((c : Thread nD τ).loc main_arg3)) (m ((c : Thread nD τ).loc main_arg4)) (scale m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by rw [V_main_arg0, V_main_arg3, V_main_arg4])), (h c).2⟩)
    (Value.run_blocks m ρ)

end Cert.KernelIdeal.Whole

end
-- ==== Proof.RefNoised.lean ====
/-
  The reference, read entry by entry.

  Its last stages are: the 0.3 threshold broadcast to the matrix shape and compared with the draws u; the per-sample
  scale (a vector of 2048 entries, the stage `val_main_v23` of the sample scores and labels) made a column and repeated
  along the 8192 features; the product with the noise n; a select against a matrix of zeros; the sum with x. At an
  entry (r, k) every broadcast reads its operand at the entry's row or at the one index of a scalar, so the result is

      x(r, k) + (if u(r, k) < 0.3 then n(r, k) · scale(r) else 0),

  which is `noised x u n scale` — with the scale left as the stage it is: nothing here opens it.
-/
import proofs.«173170_j20770461843630_2_alg».proof.Proof.RefReadP
import proofs.«173170_j20770461843630_2_alg».proof.Proof.Noised

noncomputable section

namespace Cert.ReferenceIdeal.RefNoised

open Cert.ReferenceIdeal Cert.ReferenceIdeal.Gen Cert.ReferenceIdeal.ReadP Cert.MaskNoise
open Idealize.ShloMosaic Idealize.ShloMosaic.TcCoe

variable {F : FTy → Type} [FloatOps F]

/-- The row read through the two broadcasts of the scale (vector to column, column to matrix) is the entry's row. -/
theorem row_eq (i : S2048x8192.Idx) : idx_main_v26 (idx_main_v27 i) = rowOf i := by
  funext a
  match a with
  | ⟨0, _⟩ => rfl

/-- The reference's result stage is `noised` of its arguments x, u, n and of the scale stage. -/
theorem result_eq (x0 : (⟨S2048x8192, .f32⟩ : BufTy).Contents (Elt F)) (x1 : (⟨S2048x1000, .f32⟩ : BufTy).Contents (Elt F))
    (x2 : (⟨S2048, .i32⟩ : BufTy).Contents (Elt F)) (x3 x4 : (⟨S2048x8192, .f32⟩ : BufTy).Contents (Elt F)) :
    val_main_v30 (F := F) x0 x1 x2 x3 x4 = noised x0 x3 x4 (val_main_v23 (F := F) x1 x2) := by
  funext i
  rw [val_main_v30_apply, val_main_v29_apply, val_main_v25_apply, val_main_v24_apply, val_main_cst_8_apply,
    val_main_v28_apply, val_main_v27_apply, val_main_v26_apply, val_main_call2_v0_apply, val_main_cst_9_apply, row_eq]
  rfl

end Cert.ReferenceIdeal.RefNoised

end
-- ==== Proof.lean ====
/-
  Masked noise injection with a per-sample scale: the kernel against its reference.

  Both programs take the samples x, the sample scores, the labels, uniform draws u and unit noise n, and return

      out(r, k) = x(r, k) + (if u(r, k) < 0.3 then n(r, k) · scale(r) else 0),

  where scale(r) = min(0.1 · (1 + (1 − normalized loss of sample r)), 1) and the loss is the negated log-softmax score at
  the sample's label, normalized by its minimum and maximum over the samples. Both compute the scale by the same chain
  of host operations, word for word; the kernel then forms the result in a region of 16 grid points, 128 rows each, the
  scale staged as a column, and the reference forms it by whole-matrix host operations.

  The equality therefore needs no law of arithmetic and no finiteness: both results are the one function `noised` of
  the same five arrays, the scale kept as a single named term on both sides.
    * Proof/Noised.lean      — the function `noised`.
    * Proof/RefNoised.lean   — the reference's last stages, read at an entry, are `noised` of the scale stage.
    * Proof/KernelScale.lean — the column the kernel's region finds is that same scale stage, reshaped.
    * Proof/KernelValue.lean — point t writes back block t of `noised`; the blocks cover the array; the kernel's run.
  The reference's run and its stages come from Proof/RefRunP.lean and Proof/RefReadP.lean; the three frames are the
  programs' runs with the result dropped; the idealization rewrote nothing, so `preserves` is `True`.
-/
import proofs.«173170_j20770461843630_2_alg».proof.Defs
import proofs.«173170_j20770461843630_2_alg».proof.Proof.Gen.Kernel
import proofs.«173170_j20770461843630_2_alg».proof.Proof.Gen.Kernel.Frame
import proofs.«173170_j20770461843630_2_alg».proof.Proof.Gen.KernelIdeal
import proofs.«173170_j20770461843630_2_alg».proof.Proof.Gen.KernelIdeal.Frame
import proofs.«173170_j20770461843630_2_alg».proof.Proof.Gen.ReferenceIdeal
import proofs.«173170_j20770461843630_2_alg».proof.Proof.Gen.Pre_finite_inputs
import proofs.«173170_j20770461843630_2_alg».proof.Proof.KernelValue
import proofs.«173170_j20770461843630_2_alg».proof.Proof.RefNoised
import Idealize.ShloMosaic.Adequacy
import Idealize.ShloMosaic.Init

noncomputable section

namespace Cert.Proof

open Idealize.ShloMosaic Idealize.SL.Sem

/-- The kernel's program as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories that agree on the five arguments, the kernel's result array and the reference's are both `noised`
    of x, u, n and of the scale of the scores and labels. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v30_eq, Cert.ReferenceIdeal.RefNoised.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
